-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1x5 : Shape := ⟨3, ![65536, 1, 5]⟩
abbrev S65536x256 : Shape := ⟨2, ![65536, 256]⟩
abbrev S5x1024 : Shape := ⟨2, ![5, 1024]⟩
abbrev S256x1024 : Shape := ⟨2, ![256, 1024]⟩
abbrev S1024 : Shape := ⟨1, ![1024]⟩
abbrev S256x5 : Shape := ⟨2, ![256, 5]⟩
abbrev S5 : Shape := ⟨1, ![5]⟩
abbrev S_ : Shape := ⟨0, ![]⟩

class Facts : Prop where
  bcast_S_S65536x1x5 : S_.BroadcastsInDim S65536x1x5 (![] : Fin 0 → Fin S65536x1x5.rank)
  reducesTo_S65536x1x5_S_d0_1_2 : S65536x1x5.ReducesTo [0, 1, 2] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S5x1024 : S_.BroadcastsInDim S5x1024 (![] : Fin 0 → Fin S5x1024.rank)
  reducesTo_S5x1024_S_d0_1 : S5x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5 .f32) (main_v33 : IVec S_ 1) : IVec S_ 1 :=
  let main_v34 : FVec F S5 .f32 := Host.absf main_arg7
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg4 : FVec F S256x1024 .f32) (main_arg5 : FVec F S1024 .f32) (main_arg6 : FVec F S256x5 .f32) (main_arg7 : FVec F S5 .f32) (main_v13 : IVec S_ 1) (main_v16 : IVec S5x1024 1) : IVec S_ 1 :=
  let main_c_5 : IVec S_ 1 := constantI S_ 1 1#1
  let main_v17 : IVec S_ 1 := (fun x v => Host.reduce IntOp.andi x v reducesTo_S5x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x5 .f32 := Host.absf main_arg6
  let main_cst_10 : FVec F S_ .f32 := constant S_ .f32 0x7F800000#32
  let main_v30 : FVec F S256x5 .f32 := broadcastInDim S256x5 ![] bcast_S_S256x5 main_cst_10
  let main_v31 : IVec S256x5 1 := cmpf .olt main_v29 main_v30
  let main_c_11 : IVec S_ 1 := constantI S_ 1 1#1
  let main_v32 : IVec S_ 1 := (fun x v => Host.reduce IntOp.andi x v reducesTo_S256x5_S_d0_1 h_S_) main_v31 main_c_11
  let main_v33 : IVec S_ 1 := andi main_v28 main_v32
  fn_part2 (F := F) main_arg7 main_v33

def fn {F : FTy → Type} [FloatOps F] (main_arg0 : FVec F S65536x1x5 .f32) (main_arg1 : FVec F S65536x256 .f32) (main_arg2 : FVec F S65536x256 .f32) (main_arg3 : FVec F S5x1024 .f32) (main_arg4 : FVec F S256x1024 .f32) (main_arg5 : FVec F S1024 .f32) (main_arg6 : FVec F S256x5 .f32) (main_arg7 : FVec F S5 .f32) : IVec S_ 1 :=
  let main_v0 : FVec F S65536x1x5 .f32 := Host.absf main_arg0
  let main_cst : FVec F S_ .f32 := constant S_ .f32 0x7F800000#32
  let main_v1 : FVec F S65536x1x5 .f32 := broadcastInDim S65536x1x5 ![] bcast_S_S65536x1x5 main_cst
  let main_v2 : IVec S65536x1x5 1 := cmpf .olt main_v0 main_v1
  let main_c : IVec S_ 1 := constantI S_ 1 1#1
  let main_v3 : IVec S_ 1 := (fun x v => Host.reduce IntOp.andi x v reducesTo_S65536x1x5_S_d0_1_2 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S5x1024 .f32 := Host.absf main_arg3
  let main_cst_4 : FVec F S_ .f32 := constant S_ .f32 0x7F800000#32
  let main_v15 : FVec F S5x1024 .f32 := broadcastInDim S5x1024 ![] bcast_S_S5x1024 main_cst_4
  let main_v16 : IVec S5x1024 1 := cmpf .olt main_v14 main_v15
  fn_part1 (F := F) main_arg4 main_arg5 main_arg6 main_arg7 main_v13 main_v16
-- ==== Kernel.lean ====
abbrev S65536x1x5 : Shape := ⟨3, ![65536, 1, 5]⟩
abbrev S65536x256 : Shape := ⟨2, ![65536, 256]⟩
abbrev S5x1024 : Shape := ⟨2, ![5, 1024]⟩
abbrev S256x1024 : Shape := ⟨2, ![256, 1024]⟩
abbrev S1024 : Shape := ⟨1, ![1024]⟩
abbrev S256x5 : Shape := ⟨2, ![256, 5]⟩
abbrev S5 : Shape := ⟨1, ![5]⟩
abbrev S65536x5 : Shape := ⟨2, ![65536, 5]⟩
abbrev S1x1024 : Shape := ⟨2, ![1, 1024]⟩
abbrev S_ : Shape := ⟨0, ![]⟩
abbrev S256x128 : Shape := ⟨2, ![256, 128]⟩
abbrev S128 : Shape := ⟨1, ![128]⟩
abbrev S1x128 : Shape := ⟨2, ![1, 128]⟩
abbrev S65536x128 : Shape := ⟨2, ![65536, 128]⟩
abbrev S1024x5 : Shape := ⟨2, ![1024, 5]⟩
abbrev S1024x256 : Shape := ⟨2, ![1024, 256]⟩
abbrev S1024x128 : Shape := ⟨2, ![1024, 128]⟩
abbrev S1024x1024 : Shape := ⟨2, ![1024, 1024]⟩

abbrev nBuf : Space → Nat
  | .hbm => 21
  | .vmem => 17
  | .smem => 0
  | _ => 0

abbrev bufTy : (tb : Table) → Fin (tcTables nBuf tb) → BufTy
  | .hbm, ⟨0, _⟩ => ⟨S65536x1x5, .f32⟩
  | .hbm, ⟨1, _⟩ => ⟨S65536x256, .f32⟩
  | .hbm, ⟨2, _⟩ => ⟨S65536x256, .f32⟩
  | .hbm, ⟨3, _⟩ => ⟨S5x1024, .f32⟩
  | .hbm, ⟨4, _⟩ => ⟨S256x1024, .f32⟩
  | .hbm, ⟨5, _⟩ => ⟨S1024, .f32⟩
  | .hbm, ⟨6, _⟩ => ⟨S256x5, .f32⟩
  | .hbm, ⟨7, _⟩ => ⟨S5, .f32⟩
  | .hbm, ⟨8, _⟩ => ⟨S65536x5, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S65536x128, .f32⟩
  | .hbm, ⟨18, _⟩ => ⟨S65536x256, .f32⟩
  | .hbm, ⟨19, _⟩ => ⟨S65536x256, .f32⟩
  | .hbm, ⟨20, _⟩ => ⟨S65536x5, .f32⟩
  | .local _ .vmem, ⟨0, _⟩ => ⟨S1024x5, .f32⟩
  | .local _ .vmem, ⟨1, _⟩ => ⟨S1024x5, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S5x1024, .f32⟩
  | .local _ .vmem, ⟨7, _⟩ => ⟨S256x1024, .f32⟩
  | .local _ .vmem, ⟨8, _⟩ => ⟨S1x1024, .f32⟩
  | .local _ .vmem, ⟨9, _⟩ => ⟨S256x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S65536x1x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S65536x1x5_S65536x5 : S65536x1x5.ShapeCasts S65536x5
  shapeCasts_S1024_S1x1024 : S1024.ShapeCasts S1x1024
  pads_S256x5_S256x128_000_01230 : S256x5.Pads (![0, 0] : Fin 2 → Nat) ![0, 123] ![0, 0] S256x128
  h_S_ : 0 < S_.numel
  pads_S5_S128_01230 : S5.Pads (![0] : Fin 1 → Nat) ![123] ![0] S128
  shapeCasts_S128_S1x128 : S128.ShapeCasts S1x128
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S5x1024_S5x1024_0_0 : ∀ a, (![0, 0] : Fin 2 → Nat) a + S5x1024.size a ≤ S5x1024.size a
  h_S5x1024 : 0 < S5x1024.numel
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S65536x128_S65536x5_0_0 : S65536x128.Slices ![0, 0] S65536x5
  dot_S1024x5_S5x1024_S1024x1024_1_0_0_1_n_n_wf : DotDims.WF S1024x5 S5x1024 S1024x1024 [1] [0] [0] [1] [] []
  dot_S1024x256_S256x1024_S1024x1024_1_0_0_1_n_n_wf : DotDims.WF S1024x256 S256x1024 S1024x1024 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5.size a ≤ S65536x5.size a
  hwx0_0 : ∀ i : grid0.Coords, EltTy.bits .f32 = 32 ∨ (Rect.block (s := S65536x5) S1024x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1024.size a ≤ S5x1024.size a
  hwx0_3 : ∀ i : grid0.Coords, EltTy.bits .f32 = 32 ∨ (Rect.block (s := S5x1024) S5x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S65536x256.size a
  hwx0_9 : ∀ i : grid0.Coords, EltTy.bits .f32 = 32 ∨ (Rect.block (s := S65536x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S65536x256.size a
  hwx0_10 : ∀ i : grid0.Coords, EltTy.bits .f32 = 32 ∨ (Rect.block (s := S65536x256) S1024x256.size (cc0_transform_10 i) (hinb0_10 i)).WholeWords (EltTy.packing .f32)

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S1024x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_2) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x1x5 : Shape := ⟨3, ![65536, 1, 5]⟩
abbrev S65536x256 : Shape := ⟨2, ![65536, 256]⟩
abbrev S5x1024 : Shape := ⟨2, ![5, 1024]⟩
abbrev S256x1024 : Shape := ⟨2, ![256, 1024]⟩
abbrev S1024 : Shape := ⟨1, ![1024]⟩
abbrev S256x5 : Shape := ⟨2, ![256, 5]⟩
abbrev S5 : Shape := ⟨1, ![5]⟩
abbrev S65536x5 : Shape := ⟨2, ![65536, 5]⟩
abbrev S65536x1024 : Shape := ⟨2, ![65536, 1024]⟩
abbrev S1x1024 : Shape := ⟨2, ![1, 1024]⟩
abbrev S_ : Shape := ⟨0, ![]⟩
abbrev S1x5 : Shape := ⟨2, ![1, 5]⟩

abbrev nBuf : Space → Nat
  | .hbm => 57
  | .vmem => 0
  | .smem => 0
  | _ => 0

abbrev bufTy : (tb : Table) → Fin (tcTables nBuf tb) → BufTy
  | .hbm, ⟨0, _⟩ => ⟨S65536x1x5, .f32⟩
  | .hbm, ⟨1, _⟩ => ⟨S65536x256, .f32⟩
  | .hbm, ⟨2, _⟩ => ⟨S65536x256, .f32⟩
  | .hbm, ⟨3, _⟩ => ⟨S5x1024, .f32⟩
  | .hbm, ⟨4, _⟩ => ⟨S256x1024, .f32⟩
  | .hbm, ⟨5, _⟩ => ⟨S1024, .f32⟩
  | .hbm, ⟨6, _⟩ => ⟨S256x5, .f32⟩
  | .hbm, ⟨7, _⟩ => ⟨S5, .f32⟩
  | .hbm, ⟨8, _⟩ => ⟨S65536x5, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S_, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S_, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S_, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x5, .f32⟩
  | .hbm, ⟨54, _⟩ => ⟨S1x5, .f32⟩
  | .hbm, ⟨55, _⟩ => ⟨S65536x5, .f32⟩
  | .hbm, ⟨56, _⟩ => ⟨S65536x5, .f32⟩
  | _, _ => ⟨S65536x1x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  shapeCasts_S65536x1x5_S65536x5 : S65536x1x5.ShapeCasts S65536x5
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  bcast_S5_S1x5_1 : S5.BroadcastsInDim S1x5 (![1] : Fin 1 → Fin S1x5.rank)
  bcast_S1x5_S65536x5_0_1 : S1x5.BroadcastsInDim S65536x5 (![0, 1] : Fin 2 → Fin S65536x5.rank)
  dot_S65536x5_S5x1024_S65536x1024_1_0_0_1_n_n_wf : DotDims.WF S65536x5 S5x1024 S65536x1024 [1] [0] [0] [1] [] []
  dot_S65536x256_S256x1024_S65536x1024_1_0_0_1_n_n_wf : DotDims.WF S65536x256 S256x1024 S65536x1024 [1] [0] [0] [1] [] []
  dot_S65536x256_S256x5_S65536x5_1_0_0_1_n_n_wf : DotDims.WF S65536x256 S256x5 S65536x5 [1] [0] [0] [1] [] []

variable [Facts₀]

def dot_S65536x5_S5x1024_S65536x1024_1_0_0_1_n_n : DotDims S65536x5 S5x1024 S65536x1024 where
  lhsContracting := [1]
  rhsContracting := [0]
  lhsNonContracting := [0]
  rhsNonContracting := [1]
  lhsBatch := []
  rhsBatch := []
  wf := dot_S65536x5_S5x1024_S65536x1024_1_0_0_1_n_n_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x5_S65536x5_1_0_0_1_n_n : DotDims S65536x256 S256x5 S65536x5 where
  lhsContracting := [1]
  rhsContracting := [0]
  lhsNonContracting := [0]
  rhsNonContracting := [1]
  lhsBatch := []
  rhsBatch := []
  wf := dot_S65536x256_S256x5_S65536x5_1_0_0_1_n_n_wf

class Facts : Prop extends Facts₀ where

variable [Facts]
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Cell.lean ====
/-
  One step of an LSTM cell with ReLU activations and a dense read-out, one batch row at a time, on the
  extended reals.

  For one row with features `x` (5 entries), previous hidden state `h` (256) and previous cell state `c` (256),
  weights `W` (5 × 1024) and `U` (256 × 1024) and bias `b` (1024), the gate pre-activations are
      z = x·W + h·U + b            (1024 columns: four runs of 256 — input, forget, candidate, output),
  the new cell state is            σ(z_forget)·c + σ(z_input)·max(z_candidate, 0),
  the new hidden state is          σ(z_output)·max(cell, 0),
  and a read-out against a weight column `w` and a bias is   Σ_k hidden_k · w_k + bias.
  σ is the logistic function 1 / (1 + e^(−x)) of the extended reals.

  Whole arrays are these row functions applied row by row; the arrays' rows are handed in as functions of the
  row number, so the same definition serves every layout in which the rows arrive.
-/
import Idealize.ShloMosaic.PureOps.Ideal
import Idealize.ShloMosaic.Lib.ValueIdx

noncomputable section

namespace Cert.Lstm

open Idealize.ShloMosaic Idealize.ShloMosaic.ValueIdx

/-- The gate pre-activation of one row at column `c`: the row of features against column `c` of `W`, plus the
    row of the hidden state against column `c` of `U`, plus the bias. -/
def gate (x : Fin 5 → EReal) (h : Fin 256 → EReal) (W : Fin 5 → Fin 1024 → EReal) (U : Fin 256 → Fin 1024 → EReal)
    (b : Fin 1024 → EReal) (c : Fin 1024) : EReal :=
  (∑ k : Fin 5, x k * W k c + ∑ k : Fin 256, h k * U k c) + b c

/-- Column `j` of the input gate's run of the 1024 gate columns. -/
def colI (j : Fin 256) : Fin 1024 := ⟨j.val, by have := j.isLt; omega⟩
/-- Column `j` of the forget gate's run. -/
def colF (j : Fin 256) : Fin 1024 := ⟨256 + j.val, by have := j.isLt; omega⟩
/-- Column `j` of the candidate's run. -/
def colC (j : Fin 256) : Fin 1024 := ⟨512 + j.val, by have := j.isLt; omega⟩
/-- Column `j` of the output gate's run. -/
def colO (j : Fin 256) : Fin 1024 := ⟨768 + j.val, by have := j.isLt; omega⟩

/-- The new cell state of one row at unit `j`, from the row's gate pre-activations `z` and previous cell state `c`. -/
def cellOf (z : Fin 1024 → EReal) (c : Fin 256 → EReal) (j : Fin 256) : EReal :=
  Ideal.logistic (z (colF j)) * c j + Ideal.logistic (z (colI j)) * max (z (colC j)) 0

/-- The new hidden state of one row at unit `j`. -/
def hiddenOf (z : Fin 1024 → EReal) (c : Fin 256 → EReal) (j : Fin 256) : EReal :=
  Ideal.logistic (z (colO j)) * max (cellOf z c j) 0

/-- A read-out of a hidden row against a weight column, plus a bias. -/
def readOut (hid : Fin 256 → EReal) (w : Fin 256 → EReal) (bias : EReal) : EReal :=
  ∑ k : Fin 256, hid k * w k + bias

/-- The row number of a matrix index, as a number below the row count. -/
abbrev rowIx {a b : Nat} (i : (⟨2, ![a, b]⟩ : Shape).Idx) : Fin a := ⟨(i 0).val, idx2_lt0 i⟩
/-- The column number of a matrix index, as a number below the column count. -/
abbrev colIx {a b : Nat} (i : (⟨2, ![a, b]⟩ : Shape).Idx) : Fin b := ⟨(i 1).val, idx2_lt1 i⟩

/-- The new cell state as a 65536 × 256 array, from the rows of the features, the previous hidden state and the
    previous cell state, and the weights by coordinates. -/
def cellArr (xr : Fin 65536 → Fin 5 → EReal) (hr cr : Fin 65536 → Fin 256 → EReal)
    (W : Fin 5 → Fin 1024 → EReal) (U : Fin 256 → Fin 1024 → EReal) (b : Fin 1024 → EReal) :
    (⟨2, ![65536, 256]⟩ : Shape).Idx → EReal :=
  fun i => cellOf (gate (xr (rowIx i)) (hr (rowIx i)) W U b) (cr (rowIx i)) (colIx i)

/-- The new hidden state as a 65536 × 256 array. -/
def hiddenArr (xr : Fin 65536 → Fin 5 → EReal) (hr cr : Fin 65536 → Fin 256 → EReal)
    (W : Fin 5 → Fin 1024 → EReal) (U : Fin 256 → Fin 1024 → EReal) (b : Fin 1024 → EReal) :
    (⟨2, ![65536, 256]⟩ : Shape).Idx → EReal :=
  fun i => hiddenOf (gate (xr (rowIx i)) (hr (rowIx i)) W U b) (cr (rowIx i)) (colIx i)

/-- The read-outs as a 65536 × n array, for read-out weights of `n` columns. -/
def logitArr (n : Nat) (xr : Fin 65536 → Fin 5 → EReal) (hr cr : Fin 65536 → Fin 256 → EReal)
    (W : Fin 5 → Fin 1024 → EReal) (U : Fin 256 → Fin 1024 → EReal) (b : Fin 1024 → EReal)
    (Wd : Fin 256 → Fin n → EReal) (bd : Fin n → EReal) : (⟨2, ![65536, n]⟩ : Shape).Idx → EReal :=
  fun i => readOut (hiddenOf (gate (xr (rowIx i)) (hr (rowIx i)) W U b) (cr (rowIx i)))
    (fun k => Wd k (colIx i)) (bd (colIx i))

theorem cellArr_ix2 (xr : Fin 65536 → Fin 5 → EReal) (hr cr : Fin 65536 → Fin 256 → EReal)
    (W : Fin 5 → Fin 1024 → EReal) (U : Fin 256 → Fin 1024 → EReal) (b : Fin 1024 → EReal) (r : Fin 65536) (j : Fin 256) :
    cellArr xr hr cr W U b (ix2 r j) = cellOf (gate (xr r) (hr r) W U b) (cr r) j := rfl

theorem hiddenArr_ix2 (xr : Fin 65536 → Fin 5 → EReal) (hr cr : Fin 65536 → Fin 256 → EReal)
    (W : Fin 5 → Fin 1024 → EReal) (U : Fin 256 → Fin 1024 → EReal) (b : Fin 1024 → EReal) (r : Fin 65536) (j : Fin 256) :
    hiddenArr xr hr cr W U b (ix2 r j) = hiddenOf (gate (xr r) (hr r) W U b) (cr r) j := rfl

theorem logitArr_ix2 (n : Nat) (xr : Fin 65536 → Fin 5 → EReal) (hr cr : Fin 65536 → Fin 256 → EReal)
    (W : Fin 5 → Fin 1024 → EReal) (U : Fin 256 → Fin 1024 → EReal) (b : Fin 1024 → EReal)
    (Wd : Fin 256 → Fin n → EReal) (bd : Fin n → EReal) (r : Fin 65536) (l : Fin n) :
    logitArr n xr hr cr W U b Wd bd (ix2 r l)
      = readOut (hiddenOf (gate (xr r) (hr r) W U b) (cr r)) (fun k => Wd k l) (bd l) := rfl

/-- A matrix index with known coordinates is the index built from them. -/
theorem ix2_ext {a b : Nat} (i : (⟨2, ![a, b]⟩ : Shape).Idx) (p : Fin a) (q : Fin b)
    (h0 : (i 0).val = p.val) (h1 : (i 1).val = q.val) : i = ix2 p q :=
  funext fun d => Fin.ext (by
    match d with
    | ⟨0, _⟩ => exact h0
    | ⟨1, _⟩ => exact h1)

/-! ## The three results as functions of the argument arrays

The features arrive as a 65536 × 1 × 5 array (one time step), the bias vectors as flat arrays. -/

section Results

variable (seq : (⟨3, ![65536, 1, 5]⟩ : Shape).Idx → EReal) (h0 c0 : (⟨2, ![65536, 256]⟩ : Shape).Idx → EReal)
  (W : (⟨2, ![5, 1024]⟩ : Shape).Idx → EReal) (U : (⟨2, ![256, 1024]⟩ : Shape).Idx → EReal)
  (b : (⟨1, ![1024]⟩ : Shape).Idx → EReal)

/-- The new cell state. -/
def newCell : (⟨2, ![65536, 256]⟩ : Shape).Idx → EReal :=
  cellArr (fun r k => seq (ix3 r (0 : Fin 1) k)) (fun r k => h0 (ix2 r k)) (fun r j => c0 (ix2 r j))
    (fun k c => W (ix2 k c)) (fun k c => U (ix2 k c)) (fun c => b (ix1 c))

/-- The new hidden state. -/
def newHidden : (⟨2, ![65536, 256]⟩ : Shape).Idx → EReal :=
  hiddenArr (fun r k => seq (ix3 r (0 : Fin 1) k)) (fun r k => h0 (ix2 r k)) (fun r j => c0 (ix2 r j))
    (fun k c => W (ix2 k c)) (fun k c => U (ix2 k c)) (fun c => b (ix1 c))

/-- The five read-outs of the new hidden state. -/
def logits (Wd : (⟨2, ![256, 5]⟩ : Shape).Idx → EReal) (bd : (⟨1, ![5]⟩ : Shape).Idx → EReal) :
    (⟨2, ![65536, 5]⟩ : Shape).Idx → EReal :=
  logitArr 5 (fun r k => seq (ix3 r (0 : Fin 1) k)) (fun r k => h0 (ix2 r k)) (fun r j => c0 (ix2 r j))
    (fun k c => W (ix2 k c)) (fun k c => U (ix2 k c)) (fun c => b (ix1 c)) (fun k l => Wd (ix2 k l)) (fun l => bd (ix1 l))

end Results

end Cert.Lstm

end
-- ==== Proof.Payload.lean ====
/-
  What one grid point's body computes, entry by entry: from the point's blocks of the features, the previous
  hidden and cell state (1024 rows each) and the whole weight arrays, row `p` of the stored cell-state block is
  the LSTM step's new cell state of that row, row `p` of the stored hidden block its new hidden state, and row
  `p` of the stored read-out block the read-outs of that hidden row against the (padded) read-out weights.

  The three matrix products run into zero accumulators, so each entry is the plain sum over the contracted axis;
  the roundings to bf16 on the way into the products are the identity on the extended reals; the gate columns
  are cut out of the 1024 pre-activation columns in four runs of 256.
-/
import proofs.«138876_j82111184765559_2_alg».proof.Proof.Gen.KernelIdeal.Skeleton
import proofs.«138876_j82111184765559_2_alg».proof.Proof.LibSplitContraction
import proofs.«138876_j82111184765559_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Lstm
open Cert.Lib.SplitContraction

/-! ## The three products' index maps, coordinate by coordinate -/

abbrev dXW := dot_S1024x5_S5x1024_S1024x1024_1_0_0_1_n_n
abbrev dHU := dot_S1024x256_S256x1024_S1024x1024_1_0_0_1_n_n
abbrev dHD := dot_S1024x256_S256x128_S1024x128_1_0_0_1_n_n

theorem dXW_l0 (j : S1024x1024.Idx) (q : dXW.contr.Idx) : (dXW.lhsIdx j q 0).val = (j 0).val := by
  unfold DotDims.lhsIdx
  rw [dif_neg (show ¬(0 : Fin S1024x5.rank) ∈ dXW.lhsBatch by decide), dif_pos (show (0 : Fin S1024x5.rank) ∈ dXW.lhsNonContracting by decide)]
  rfl
theorem dXW_l1 (j : S1024x1024.Idx) (q : dXW.contr.Idx) : (dXW.lhsIdx j q 1).val = (q ⟨0, by decide⟩).val :=
  dXW.lhsIdx_val_of_single rfl j q
theorem dXW_r0 (j : S1024x1024.Idx) (q : dXW.contr.Idx) : (dXW.rhsIdx j q 0).val = (q ⟨0, by decide⟩).val :=
  dXW.rhsIdx_val_of_single rfl j q
theorem dXW_r1 (j : S1024x1024.Idx) (q : dXW.contr.Idx) : (dXW.rhsIdx j q 1).val = (j 1).val := by
  unfold DotDims.rhsIdx
  rw [dif_neg (show ¬(1 : Fin S5x1024.rank) ∈ dXW.rhsBatch by decide), dif_pos (show (1 : Fin S5x1024.rank) ∈ dXW.rhsNonContracting by decide)]
  rfl

theorem dHU_l0 (j : S1024x1024.Idx) (q : dHU.contr.Idx) : (dHU.lhsIdx j q 0).val = (j 0).val := by
  unfold DotDims.lhsIdx
  rw [dif_neg (show ¬(0 : Fin S1024x256.rank) ∈ dHU.lhsBatch by decide), dif_pos (show (0 : Fin S1024x256.rank) ∈ dHU.lhsNonContracting by decide)]
  rfl
theorem dHU_l1 (j : S1024x1024.Idx) (q : dHU.contr.Idx) : (dHU.lhsIdx j q 1).val = (q ⟨0, by decide⟩).val :=
  dHU.lhsIdx_val_of_single rfl j q
theorem dHU_r0 (j : S1024x1024.Idx) (q : dHU.contr.Idx) : (dHU.rhsIdx j q 0).val = (q ⟨0, by decide⟩).val :=
  dHU.rhsIdx_val_of_single rfl j q
theorem dHU_r1 (j : S1024x1024.Idx) (q : dHU.contr.Idx) : (dHU.rhsIdx j q 1).val = (j 1).val := by
  unfold DotDims.rhsIdx
  rw [dif_neg (show ¬(1 : Fin S256x1024.rank) ∈ dHU.rhsBatch by decide), dif_pos (show (1 : Fin S256x1024.rank) ∈ dHU.rhsNonContracting by decide)]
  rfl

theorem dHD_l0 (j : S1024x128.Idx) (q : dHD.contr.Idx) : (dHD.lhsIdx j q 0).val = (j 0).val := by
  unfold DotDims.lhsIdx
  rw [dif_neg (show ¬(0 : Fin S1024x256.rank) ∈ dHD.lhsBatch by decide), dif_pos (show (0 : Fin S1024x256.rank) ∈ dHD.lhsNonContracting by decide)]
  rfl
theorem dHD_l1 (j : S1024x128.Idx) (q : dHD.contr.Idx) : (dHD.lhsIdx j q 1).val = (q ⟨0, by decide⟩).val :=
  dHD.lhsIdx_val_of_single rfl j q
theorem dHD_r0 (j : S1024x128.Idx) (q : dHD.contr.Idx) : (dHD.rhsIdx j q 0).val = (q ⟨0, by decide⟩).val :=
  dHD.rhsIdx_val_of_single rfl j q
theorem dHD_r1 (j : S1024x128.Idx) (q : dHD.contr.Idx) : (dHD.rhsIdx j q 1).val = (j 1).val := by
  unfold DotDims.rhsIdx
  rw [dif_neg (show ¬(1 : Fin S256x128.rank) ∈ dHD.rhsBatch by decide), dif_pos (show (1 : Fin S256x128.rank) ∈ dHD.rhsNonContracting by decide)]
  rfl

/-! ## The gate pre-activations of a block row -/

/-- Entry (p, c) of the body's 1024 × 1024 pre-activation block is the gate pre-activation of block row `p` at
    column `c`: the two products' sums plus the bias row. -/
theorem gate_block (x0 : Vec Ideal S1024x5 .f32) (x1 : Vec Ideal S1024x256 .f32) (x3 : Vec Ideal S5x1024 .f32)
    (x4 : Vec Ideal S256x1024 .f32) (x5 : Vec Ideal S1x1024 .f32) (p : Fin 1024) (c : Fin 1024) :
    k0_pay2 x0 x1 x3 x4 x5 (ix2 p c)
      = gate (fun k => x0 (ix2 p k)) (fun k => x1 (ix2 p k)) (fun k c' => x3 (ix2 k c')) (fun k c' => x4 (ix2 k c'))
          (fun c' => x5 (ix2 (0 : Fin 1) c')) c := by
  unfold k0_pay2 gate
  simp only [shapeCast_self]
  refine congrArg₂ (· + ·) (congrArg₂ (· + ·) ?_ ?_) ?_
  · exact matmul_zero_at dXW rfl rfl dXW_l0 dXW_l1 dXW_r0 dXW_r1 none _ _ p c
  · exact matmul_zero_at dHU rfl rfl dHU_l0 dHU_l1 dHU_r0 dHU_r1 none _ _ p c
  · exact broadcastTo_1b_ab_apply x5 _ p c

/-! ## The stored blocks, entry by entry -/

/-- Entry (p, j) of the stored cell-state block: the forget gate times the previous cell state plus the input gate
    times the rectified candidate, the three gate columns cut out of row `p`'s pre-activations. -/
theorem cell_block (x0 : Vec Ideal S1024x5 .f32) (x1 : Vec Ideal S1024x256 .f32) (x3 : Vec Ideal S5x1024 .f32)
    (x4 : Vec Ideal S256x1024 .f32) (x5 : Vec Ideal S1x1024 .f32) (x2 : Vec Ideal S1024x256 .f32) (p : Fin 1024) (j : Fin 256) :
    k0_pay3 x0 x1 x3 x4 x5 x2 (ix2 p j)
      = cellOf (gate (fun k => x0 (ix2 p k)) (fun k => x1 (ix2 p k)) (fun k c' => x3 (ix2 k c')) (fun k c' => x4 (ix2 k c'))
          (fun c' => x5 (ix2 (0 : Fin 1) c'))) (fun j' => x2 (ix2 p j')) j := by
  unfold k0_pay3 cellOf
  refine congrArg₂ (· + ·) (congrArg₂ (· * ·) (congrArg Ideal.logistic ?_) rfl)
    (congrArg₂ (· * ·) (congrArg Ideal.logistic ?_) (congrArg₂ max ?_ ?_))
  · exact (slice2_axis1_apply 256 _ _ p j (colF j) rfl).trans (gate_block x0 x1 x3 x4 x5 p (colF j))
  · exact (slice2_axis1_apply 0 _ _ p j (colI j) (Nat.zero_add _).symm).trans (gate_block x0 x1 x3 x4 x5 p (colI j))
  · exact (slice2_axis1_apply 512 _ _ p j (colC j) rfl).trans (gate_block x0 x1 x3 x4 x5 p (colC j))
  · exact Ideal.ofBits_zero_f32

/-- Entry (p, j) of the stored hidden block: the output gate times the rectified new cell state. -/
theorem hidden_block (x0 : Vec Ideal S1024x5 .f32) (x1 : Vec Ideal S1024x256 .f32) (x3 : Vec Ideal S5x1024 .f32)
    (x4 : Vec Ideal S256x1024 .f32) (x5 : Vec Ideal S1x1024 .f32) (x2 : Vec Ideal S1024x256 .f32) (p : Fin 1024) (j : Fin 256) :
    k0_pay4 x0 x1 x3 x4 x5 x2 (ix2 p j)
      = hiddenOf (gate (fun k => x0 (ix2 p k)) (fun k => x1 (ix2 p k)) (fun k c' => x3 (ix2 k c')) (fun k c' => x4 (ix2 k c'))
          (fun c' => x5 (ix2 (0 : Fin 1) c'))) (fun j' => x2 (ix2 p j')) j := by
  unfold k0_pay4 hiddenOf
  refine congrArg₂ (· * ·) (congrArg Ideal.logistic ?_) (congrArg₂ max ?_ ?_)
  · exact (slice2_axis1_apply 768 _ _ p j (colO j) rfl).trans (gate_block x0 x1 x3 x4 x5 p (colO j))
  · exact cell_block x0 x1 x3 x4 x5 x2 p j
  · exact Ideal.ofBits_zero_f32

/-- Entry (p, l) of the stored read-out block: row `p`'s new hidden state against column `l` of the read-out
    weights, plus entry `l` of the read-out bias row. -/
theorem logit_block (x0 : Vec Ideal S1024x5 .f32) (x1 : Vec Ideal S1024x256 .f32) (x3 : Vec Ideal S5x1024 .f32)
    (x4 : Vec Ideal S256x1024 .f32) (x5 : Vec Ideal S1x1024 .f32) (x2 : Vec Ideal S1024x256 .f32)
    (x6 : Vec Ideal S256x128 .f32) (x7 : Vec Ideal S1x128 .f32) (p : Fin 1024) (l : Fin 128) :
    k0_pay1 (k0_pay5 x6) (k0_pay6 x7) (k0_pay7 x0 x1 x3 x4 x5 x2) (constant S1024x128 .f32 0x00000000#32) (ix2 p l)
      = readOut (hiddenOf (gate (fun k => x0 (ix2 p k)) (fun k => x1 (ix2 p k)) (fun k c' => x3 (ix2 k c')) (fun k c' => x4 (ix2 k c'))
          (fun c' => x5 (ix2 (0 : Fin 1) c'))) (fun j' => x2 (ix2 p j'))) (fun k => x6 (ix2 k l)) (x7 (ix2 (0 : Fin 1) l)) := by
  unfold k0_pay1 k0_pay5 k0_pay6 k0_pay7 readOut
  simp only [shapeCast_self]
  refine congrArg₂ (· + ·) ?_ ?_
  · refine (matmul_zero_at dHD rfl rfl dHD_l0 dHD_l1 dHD_r0 dHD_r1 none _ _ p l).trans ?_
    exact Finset.sum_congr rfl fun k _ => congrArg₂ (· * ·) (hidden_block x0 x1 x3 x4 x5 x2 p k) rfl
  · exact broadcastTo_1b_ab_apply x7 _ p l

end Cert.KernelIdeal.Payload

end
-- ==== Proof.Blocks.lean ====
/-
  From blocks to whole arrays.  The grid has 64 points; point t works on rows 1024·t … 1024·t + 1023 of the features,
  the previous hidden state and the previous cell state, and on the whole weight and bias arrays; it writes back rows
  1024·t … 1024·t + 1023 of the three result arrays.  Since the LSTM step works row by row, what point t writes back
  is block t of ONE whole-array function of the arrays as the region finds them, and since the 64 row blocks cover
  all 65536 rows, each result array ends holding that function.
-/
import proofs.«138876_j82111184765559_2_alg».proof.Proof.Gen.KernelIdeal.Frame
import proofs.«138876_j82111184765559_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Lstm Cert.KernelIdeal.Payload
open Idealize.ShloMosaic.Pipeline (Dat)

/-! ## The three results as functions of the arrays the region finds -/

/-- The new cell state from the eight arrays as the region finds them: features 65536 × 5, bias as one row. -/
def cellK (X : S65536x5.Idx → EReal) (H0 C0 : S65536x256.Idx → EReal) (Wm : S5x1024.Idx → EReal)
    (Um : S256x1024.Idx → EReal) (B : S1x1024.Idx → EReal) : S65536x256.Idx → EReal :=
  cellArr (fun r k => X (ix2 r k)) (fun r k => H0 (ix2 r k)) (fun r k => C0 (ix2 r k)) (fun k c' => Wm (ix2 k c'))
    (fun k c' => Um (ix2 k c')) (fun c' => B (ix2 (0 : Fin 1) c'))

/-- The new hidden state from them. -/
def hiddenK (X : S65536x5.Idx → EReal) (H0 C0 : S65536x256.Idx → EReal) (Wm : S5x1024.Idx → EReal)
    (Um : S256x1024.Idx → EReal) (B : S1x1024.Idx → EReal) : S65536x256.Idx → EReal :=
  hiddenArr (fun r k => X (ix2 r k)) (fun r k => H0 (ix2 r k)) (fun r k => C0 (ix2 r k)) (fun k c' => Wm (ix2 k c'))
    (fun k c' => Um (ix2 k c')) (fun c' => B (ix2 (0 : Fin 1) c'))

/-- The 128 read-outs against the padded read-out weights (256 × 128) and padded bias row (1 × 128). -/
def logitK (X : S65536x5.Idx → EReal) (H0 C0 : S65536x256.Idx → EReal) (Wm : S5x1024.Idx → EReal)
    (Um : S256x1024.Idx → EReal) (B : S1x1024.Idx → EReal) (Wdp : S256x128.Idx → EReal) (Bdp : S1x128.Idx → EReal) : S65536x128.Idx → EReal :=
  logitArr 128 (fun r k => X (ix2 r k)) (fun r k => H0 (ix2 r k)) (fun r k => C0 (ix2 r k)) (fun k c' => Wm (ix2 k c'))
    (fun k c' => Um (ix2 k c')) (fun c' => B (ix2 (0 : Fin 1) c')) (fun k l => Wdp (ix2 k l)) (fun l => Bdp (ix2 (0 : Fin 1) l))

/-! ## One point's stored entries, from where its blocks sit in the arrays -/

/-- If block row `p` of the row-blocked inputs is array row `R` and the other blocks are the whole arrays, the stored
    cell-state entry (p, j) is the whole-array cell state at (R, j). -/
theorem cell_point (X : S65536x5.Idx → EReal) (H0 C0 : S65536x256.Idx → EReal) (Wm : S5x1024.Idx → EReal)
    (Um : S256x1024.Idx → EReal) (B : S1x1024.Idx → EReal)
    (x0 : Vec Ideal S1024x5 .f32) (x1 x2 : Vec Ideal S1024x256 .f32) (x3 : Vec Ideal S5x1024 .f32)
    (x4 : Vec Ideal S256x1024 .f32) (x5 : Vec Ideal S1x1024 .f32)
    (y : S1024x256.Idx) (i : S65536x256.Idx) (R : Fin 65536) (p : Fin 1024) (j : Fin 256) (hy : y = ix2 p j) (hi : i = ix2 R j)
    (e0 : ∀ k : Fin 5, x0 (ix2 p k) = X (ix2 R k)) (e1 : ∀ k : Fin 256, x1 (ix2 p k) = H0 (ix2 R k))
    (e2 : ∀ k : Fin 256, x2 (ix2 p k) = C0 (ix2 R k)) (e3 : ∀ (k : Fin 5) (c' : Fin 1024), x3 (ix2 k c') = Wm (ix2 k c'))
    (e4 : ∀ (k : Fin 256) (c' : Fin 1024), x4 (ix2 k c') = Um (ix2 k c')) (e5 : ∀ c' : Fin 1024, x5 (ix2 (0 : Fin 1) c') = B (ix2 (0 : Fin 1) c')) :
    k0_pay3 x0 x1 x3 x4 x5 x2 y = cellK X H0 C0 Wm Um B i := by
  subst hy hi
  rw [cell_block]
  have E0 : (fun k => x0 (ix2 p k)) = fun k => X (ix2 R k) := funext e0
  have E1 : (fun k => x1 (ix2 p k)) = fun k => H0 (ix2 R k) := funext e1
  have E2 : (fun k => x2 (ix2 p k)) = fun k => C0 (ix2 R k) := funext e2
  have E3 : (fun k c' => x3 (ix2 k c')) = fun k c' => Wm (ix2 k c') := funext fun k => funext fun c' => e3 k c'
  have E4 : (fun k c' => x4 (ix2 k c')) = fun k c' => Um (ix2 k c') := funext fun k => funext fun c' => e4 k c'
  have E5 : (fun c' => x5 (ix2 (0 : Fin 1) c')) = fun c' => B (ix2 (0 : Fin 1) c') := funext e5
  rw [E0, E1, E2, E3, E4, E5]
  rfl

/-- The same for the stored hidden entry. -/
theorem hidden_point (X : S65536x5.Idx → EReal) (H0 C0 : S65536x256.Idx → EReal) (Wm : S5x1024.Idx → EReal)
    (Um : S256x1024.Idx → EReal) (B : S1x1024.Idx → EReal)
    (x0 : Vec Ideal S1024x5 .f32) (x1 x2 : Vec Ideal S1024x256 .f32) (x3 : Vec Ideal S5x1024 .f32)
    (x4 : Vec Ideal S256x1024 .f32) (x5 : Vec Ideal S1x1024 .f32)
    (y : S1024x256.Idx) (i : S65536x256.Idx) (R : Fin 65536) (p : Fin 1024) (j : Fin 256) (hy : y = ix2 p j) (hi : i = ix2 R j)
    (e0 : ∀ k : Fin 5, x0 (ix2 p k) = X (ix2 R k)) (e1 : ∀ k : Fin 256, x1 (ix2 p k) = H0 (ix2 R k))
    (e2 : ∀ k : Fin 256, x2 (ix2 p k) = C0 (ix2 R k)) (e3 : ∀ (k : Fin 5) (c' : Fin 1024), x3 (ix2 k c') = Wm (ix2 k c'))
    (e4 : ∀ (k : Fin 256) (c' : Fin 1024), x4 (ix2 k c') = Um (ix2 k c')) (e5 : ∀ c' : Fin 1024, x5 (ix2 (0 : Fin 1) c') = B (ix2 (0 : Fin 1) c')) :
    k0_pay4 x0 x1 x3 x4 x5 x2 y = hiddenK X H0 C0 Wm Um B i := by
  subst hy hi
  rw [hidden_block]
  have E0 : (fun k => x0 (ix2 p k)) = fun k => X (ix2 R k) := funext e0
  have E1 : (fun k => x1 (ix2 p k)) = fun k => H0 (ix2 R k) := funext e1
  have E2 : (fun k => x2 (ix2 p k)) = fun k => C0 (ix2 R k) := funext e2
  have E3 : (fun k c' => x3 (ix2 k c')) = fun k c' => Wm (ix2 k c') := funext fun k => funext fun c' => e3 k c'
  have E4 : (fun k c' => x4 (ix2 k c')) = fun k c' => Um (ix2 k c') := funext fun k => funext fun c' => e4 k c'
  have E5 : (fun c' => x5 (ix2 (0 : Fin 1) c')) = fun c' => B (ix2 (0 : Fin 1) c') := funext e5
  rw [E0, E1, E2, E3, E4, E5]
  rfl

/-- The same for the stored read-out entry (p, l), the read-out weights and bias row being whole arrays too. -/
theorem logit_point (X : S65536x5.Idx → EReal) (H0 C0 : S65536x256.Idx → EReal) (Wm : S5x1024.Idx → EReal)
    (Um : S256x1024.Idx → EReal) (B : S1x1024.Idx → EReal) (Wdp : S256x128.Idx → EReal) (Bdp : S1x128.Idx → EReal)
    (x0 : Vec Ideal S1024x5 .f32) (x1 x2 : Vec Ideal S1024x256 .f32) (x3 : Vec Ideal S5x1024 .f32)
    (x4 : Vec Ideal S256x1024 .f32) (x5 : Vec Ideal S1x1024 .f32) (x6 : Vec Ideal S256x128 .f32) (x7 : Vec Ideal S1x128 .f32)
    (y : S1024x128.Idx) (i : S65536x128.Idx) (R : Fin 65536) (p : Fin 1024) (l : Fin 128) (hy : y = ix2 p l) (hi : i = ix2 R l)
    (e0 : ∀ k : Fin 5, x0 (ix2 p k) = X (ix2 R k)) (e1 : ∀ k : Fin 256, x1 (ix2 p k) = H0 (ix2 R k))
    (e2 : ∀ k : Fin 256, x2 (ix2 p k) = C0 (ix2 R k)) (e3 : ∀ (k : Fin 5) (c' : Fin 1024), x3 (ix2 k c') = Wm (ix2 k c'))
    (e4 : ∀ (k : Fin 256) (c' : Fin 1024), x4 (ix2 k c') = Um (ix2 k c')) (e5 : ∀ c' : Fin 1024, x5 (ix2 (0 : Fin 1) c') = B (ix2 (0 : Fin 1) c'))
    (e6 : ∀ (k : Fin 256) (l' : Fin 128), x6 (ix2 k l') = Wdp (ix2 k l')) (e7 : ∀ l' : Fin 128, x7 (ix2 (0 : Fin 1) l') = Bdp (ix2 (0 : Fin 1) l')) :
    k0_pay1 (k0_pay5 x6) (k0_pay6 x7) (k0_pay7 x0 x1 x3 x4 x5 x2) (constant S1024x128 .f32 0x00000000#32) y
      = logitK X H0 C0 Wm Um B Wdp Bdp i := by
  subst hy hi
  rw [logit_block]
  have E0 : (fun k => x0 (ix2 p k)) = fun k => X (ix2 R k) := funext e0
  have E1 : (fun k => x1 (ix2 p k)) = fun k => H0 (ix2 R k) := funext e1
  have E2 : (fun k => x2 (ix2 p k)) = fun k => C0 (ix2 R k) := funext e2
  have E3 : (fun k c' => x3 (ix2 k c')) = fun k c' => Wm (ix2 k c') := funext fun k => funext fun c' => e3 k c'
  have E4 : (fun k c' => x4 (ix2 k c')) = fun k c' => Um (ix2 k c') := funext fun k => funext fun c' => e4 k c'
  have E5 : (fun c' => x5 (ix2 (0 : Fin 1) c')) = fun c' => B (ix2 (0 : Fin 1) c') := funext e5
  have E6 : (fun k => x6 (ix2 k l)) = fun k => Wdp (ix2 k l) := funext fun k => e6 k l
  rw [E0, E1, E2, E3, E4, E5, E6, e7 l]
  rfl

/-! ## The index maps, decided over the 64 points -/

theorem hz : (![0, 0] : Fin 2 → Nat) = fun _ => 0 := funext fun a => by fin_cases a <;> rfl

/-- The row-blocked windows (features, previous hidden and cell state, the three results) sit at block row `t`,
    block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The weight and bias windows are their whole arrays at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (m : (ℓ : Loc nD τ sig) → Buf (Elt Ideal) ℓ)

/-! ## Each input block read where it sits in its array -/

theorem rows0 (c : Dev nD) (t : Fin cfg0.N) (p : Fin 1024) (k : Fin 5) (R : Fin 65536) (hR : R.val = t.val * 1024 + p.val) :
    iblk m c 0 t (ix2 p k) = V m c main_v0 (ix2 R k) := by
  obtain ⟨f0, f1, -⟩ := idx_rows t
  show V m c main_v0 (((cfg0.win 0).blk t).view.emb (ix2 p k)) = V m c main_v0 (ix2 R k)
  refine congrArg (V m c main_v0) (funext fun a => Fin.ext ?_)
  match a with
  | ⟨0, _⟩ => show win0_0.index t (0 : Fin 2) * 1024 + 1 * p.val = R.val; omega
  | ⟨1, _⟩ => show win0_0.index t (1 : Fin 2) * 5 + 1 * k.val = k.val; omega

theorem rows1 (c : Dev nD) (t : Fin cfg0.N) (p : Fin 1024) (k : Fin 256) (R : Fin 65536) (hR : R.val = t.val * 1024 + p.val) :
    iblk m c 1 t (ix2 p k) = V m c main_arg1 (ix2 R k) := by
  obtain ⟨-, -, f0, f1, -⟩ := idx_rows t
  show V m c main_arg1 (((cfg0.win 1).blk t).view.emb (ix2 p k)) = V m c main_arg1 (ix2 R k)
  refine congrArg (V m c main_arg1) (funext fun a => Fin.ext ?_)
  match a with
  | ⟨0, _⟩ => show win0_1.index t (0 : Fin 2) * 1024 + 1 * p.val = R.val; omega
  | ⟨1, _⟩ => show win0_1.index t (1 : Fin 2) * 256 + 1 * k.val = k.val; omega

theorem rows2 (c : Dev nD) (t : Fin cfg0.N) (p : Fin 1024) (k : Fin 256) (R : Fin 65536) (hR : R.val = t.val * 1024 + p.val) :
    iblk m c 2 t (ix2 p k) = V m c main_arg2 (ix2 R k) := by
  obtain ⟨-, -, -, -, f0, f1, -⟩ := idx_rows t
  show V m c main_arg2 (((cfg0.win 2).blk t).view.emb (ix2 p k)) = V m c main_arg2 (ix2 R k)
  refine congrArg (V m c main_arg2) (funext fun a => Fin.ext ?_)
  match a with
  | ⟨0, _⟩ => show win0_2.index t (0 : Fin 2) * 1024 + 1 * p.val = R.val; omega
  | ⟨1, _⟩ => show win0_2.index t (1 : Fin 2) * 256 + 1 * k.val = k.val; omega

theorem whole3 (c : Dev nD) (t : Fin cfg0.N) (k : Fin 5) (c' : Fin 1024) :
    iblk m c 3 t (ix2 k c') = V m c main_arg3 (ix2 k c') := by
  obtain ⟨f0, f1, -⟩ := idx_whole t
  show V m c main_arg3 (((cfg0.win 3).blk t).view.emb (ix2 k c')) = V m c main_arg3 (ix2 k c')
  refine congrArg (V m c main_arg3) (funext fun a => Fin.ext ?_)
  match a with
  | ⟨0, _⟩ => show win0_3.index t (0 : Fin 2) * 5 + 1 * k.val = k.val; omega
  | ⟨1, _⟩ => show win0_3.index t (1 : Fin 2) * 1024 + 1 * c'.val = c'.val; omega

theorem whole4 (c : Dev nD) (t : Fin cfg0.N) (k : Fin 256) (c' : Fin 1024) :
    iblk m c 4 t (ix2 k c') = V m c main_arg4 (ix2 k c') := by
  obtain ⟨-, -, f0, f1, -⟩ := idx_whole t
  show V m c main_arg4 (((cfg0.win 4).blk t).view.emb (ix2 k c')) = V m c main_arg4 (ix2 k c')
  refine congrArg (V m c main_arg4) (funext fun a => Fin.ext ?_)
  match a with
  | ⟨0, _⟩ => show win0_4.index t (0 : Fin 2) * 256 + 1 * k.val = k.val; omega
  | ⟨1, _⟩ => show win0_4.index t (1 : Fin 2) * 1024 + 1 * c'.val = c'.val; omega

theorem whole5 (c : Dev nD) (t : Fin cfg0.N) (c' : Fin 1024) :
    iblk m c 5 t (ix2 (0 : Fin 1) c') = V m c main_v1 (ix2 (0 : Fin 1) c') := by
  obtain ⟨-, -, -, -, f0, f1, -⟩ := idx_whole t
  show V m c main_v1 (((cfg0.win 5).blk t).view.emb (ix2 (0 : Fin 1) c')) = V m c main_v1 (ix2 (0 : Fin 1) c')
  refine congrArg (V m c main_v1) (funext fun a => Fin.ext ?_)
  match a with
  | ⟨0, _⟩ => show win0_5.index t (0 : Fin 2) * 1 + 1 * 0 = 0; omega
  | ⟨1, _⟩ => show win0_5.index t (1 : Fin 2) * 1024 + 1 * c'.val = c'.val; omega

theorem whole6 (c : Dev nD) (t : Fin cfg0.N) (k : Fin 256) (l : Fin 128) :
    iblk m c 6 t (ix2 k l) = V m c main_v2 (ix2 k l) := by
  obtain ⟨-, -, -, -, -, -, f0, f1, -⟩ := idx_whole t
  show V m c main_v2 (((cfg0.win 6).blk t).view.emb (ix2 k l)) = V m c main_v2 (ix2 k l)
  refine congrArg (V m c main_v2) (funext fun a => Fin.ext ?_)
  match a with
  | ⟨0, _⟩ => show win0_6.index t (0 : Fin 2) * 256 + 1 * k.val = k.val; omega
  | ⟨1, _⟩ => show win0_6.index t (1 : Fin 2) * 128 + 1 * l.val = l.val; omega

theorem whole7 (c : Dev nD) (t : Fin cfg0.N) (l : Fin 128) :
    iblk m c 7 t (ix2 (0 : Fin 1) l) = V m c main_v4 (ix2 (0 : Fin 1) l) := by
  obtain ⟨-, -, -, -, -, -, -, -, f0, f1⟩ := idx_whole t
  show V m c main_v4 (((cfg0.win 7).blk t).view.emb (ix2 (0 : Fin 1) l)) = V m c main_v4 (ix2 (0 : Fin 1) l)
  refine congrArg (V m c main_v4) (funext fun a => Fin.ext ?_)
  match a with
  | ⟨0, _⟩ => show win0_7.index t (0 : Fin 2) * 1 + 1 * 0 = 0; omega
  | ⟨1, _⟩ => show win0_7.index t (1 : Fin 2) * 128 + 1 * l.val = l.val; omega

/-! ## What point t writes back is block t of the whole-array function -/

theorem flushed10_eq (c : Dev nD) (t : Fin cfg0.N) :
    (dats m 0 c).flushed 10 t = ((cfg0.win 10).blk t).view.read (Elt Ideal)
      (cellK (V m c main_v0) (V m c main_arg1) (V m c main_arg2) (V m c main_arg3) (V m c main_arg4) (V m c main_v1)) := by
  show (cfg0.win 10).cut (grid0.coords t) ((dats m 0 c).after 10 t) = _
  rw [after0_10]
  unfold out0_10
  rw [View.canon_unit_zero hz]
  simp only [View.ld_unit_zero (S := S1024x5) hz, View.ld_unit_zero (S := S1024x256) hz, View.ld_unit_zero (S := S5x1024) hz,
    View.ld_unit_zero (S := S256x1024) hz, View.ld_unit_zero (S := S1x1024) hz]
  obtain ⟨-, -, -, -, -, -, -, -, -, -, g0, g1⟩ := idx_rows t
  have hN : t.val < 64 := Nat.lt_of_lt_of_eq t.isLt (show cfg0.N = 64 from N_0)
  funext y
  have hp : (y 0).val < 1024 := (y 0).isLt
  have hj : (y 1).val < 256 := (y 1).isLt
  refine cell_point (V m c main_v0) (V m c main_arg1) (V m c main_arg2) (V m c main_arg3) (V m c main_arg4) (V m c main_v1)
    (iblk m c 0 t) (iblk m c 1 t) (iblk m c 2 t) (iblk m c 3 t) (iblk m c 4 t) (iblk m c 5 t)
    ((cfg0.win 10).xinj (grid0.coords t) y) (((cfg0.win 10).blk t).view.emb y)
    ⟨t.val * 1024 + (y 0).val, by omega⟩ ⟨(y 0).val, hp⟩ ⟨(y 1).val, hj⟩ ?_ ?_ ?_ ?_ ?_ ?_ ?_ ?_
  · exact ix2_ext _ _ _ rfl rfl
  · refine ix2_ext _ _ _ ?_ ?_
    · show win0_10.index t (0 : Fin 2) * 1024 + 1 * (y 0).val = t.val * 1024 + (y 0).val; omega
    · show win0_10.index t (1 : Fin 2) * 256 + 1 * (y 1).val = (y 1).val; omega
  · intro k; exact rows0 m c t _ k _ rfl
  · intro k; exact rows1 m c t _ k _ rfl
  · intro k; exact rows2 m c t _ k _ rfl
  · intro k c'; exact whole3 m c t k c'
  · intro k c'; exact whole4 m c t k c'
  · intro c'; exact whole5 m c t c'

theorem flushed9_eq (c : Dev nD) (t : Fin cfg0.N) :
    (dats m 0 c).flushed 9 t = ((cfg0.win 9).blk t).view.read (Elt Ideal)
      (hiddenK (V m c main_v0) (V m c main_arg1) (V m c main_arg2) (V m c main_arg3) (V m c main_arg4) (V m c main_v1)) := by
  show (cfg0.win 9).cut (grid0.coords t) ((dats m 0 c).after 9 t) = _
  rw [after0_9]
  unfold out0_9
  rw [View.canon_unit_zero hz]
  simp only [View.ld_unit_zero (S := S1024x5) hz, View.ld_unit_zero (S := S1024x256) hz, View.ld_unit_zero (S := S5x1024) hz,
    View.ld_unit_zero (S := S256x1024) hz, View.ld_unit_zero (S := S1x1024) hz]
  obtain ⟨-, -, -, -, -, -, -, -, g0, g1, -⟩ := idx_rows t
  have hN : t.val < 64 := Nat.lt_of_lt_of_eq t.isLt (show cfg0.N = 64 from N_0)
  funext y
  have hp : (y 0).val < 1024 := (y 0).isLt
  have hj : (y 1).val < 256 := (y 1).isLt
  refine hidden_point (V m c main_v0) (V m c main_arg1) (V m c main_arg2) (V m c main_arg3) (V m c main_arg4) (V m c main_v1)
    (iblk m c 0 t) (iblk m c 1 t) (iblk m c 2 t) (iblk m c 3 t) (iblk m c 4 t) (iblk m c 5 t)
    ((cfg0.win 9).xinj (grid0.coords t) y) (((cfg0.win 9).blk t).view.emb y)
    ⟨t.val * 1024 + (y 0).val, by omega⟩ ⟨(y 0).val, hp⟩ ⟨(y 1).val, hj⟩ ?_ ?_ ?_ ?_ ?_ ?_ ?_ ?_
  · exact ix2_ext _ _ _ rfl rfl
  · refine ix2_ext _ _ _ ?_ ?_
    · show win0_9.index t (0 : Fin 2) * 1024 + 1 * (y 0).val = t.val * 1024 + (y 0).val; omega
    · show win0_9.index t (1 : Fin 2) * 256 + 1 * (y 1).val = (y 1).val; omega
  · intro k; exact rows0 m c t _ k _ rfl
  · intro k; exact rows1 m c t _ k _ rfl
  · intro k; exact rows2 m c t _ k _ rfl
  · intro k c'; exact whole3 m c t k c'
  · intro k c'; exact whole4 m c t k c'
  · intro c'; exact whole5 m c t c'

theorem flushed8_eq (c : Dev nD) (t : Fin cfg0.N) :
    (dats m 0 c).flushed 8 t = ((cfg0.win 8).blk t).view.read (Elt Ideal)
      (logitK (V m c main_v0) (V m c main_arg1) (V m c main_arg2) (V m c main_arg3) (V m c main_arg4) (V m c main_v1)
        (V m c main_v2) (V m c main_v4)) := by
  show (cfg0.win 8).cut (grid0.coords t) ((dats m 0 c).after 8 t) = _
  rw [after0_8]
  unfold out0_8
  rw [View.canon_unit_zero hz]
  simp only [View.ld_unit_zero (S := S1024x5) hz, View.ld_unit_zero (S := S1024x256) hz, View.ld_unit_zero (S := S5x1024) hz,
    View.ld_unit_zero (S := S256x1024) hz, View.ld_unit_zero (S := S1x1024) hz, View.ld_unit_zero (S := S256x128) hz,
    View.ld_unit_zero (S := S1x128) hz]
  obtain ⟨-, -, -, -, -, -, g0, g1, -⟩ := idx_rows t
  have hN : t.val < 64 := Nat.lt_of_lt_of_eq t.isLt (show cfg0.N = 64 from N_0)
  funext y
  have hp : (y 0).val < 1024 := (y 0).isLt
  have hj : (y 1).val < 128 := (y 1).isLt
  refine logit_point (V m c main_v0) (V m c main_arg1) (V m c main_arg2) (V m c main_arg3) (V m c main_arg4) (V m c main_v1)
    (V m c main_v2) (V m c main_v4)
    (iblk m c 0 t) (iblk m c 1 t) (iblk m c 2 t) (iblk m c 3 t) (iblk m c 4 t) (iblk m c 5 t) (iblk m c 6 t) (iblk m c 7 t)
    ((cfg0.win 8).xinj (grid0.coords t) y) (((cfg0.win 8).blk t).view.emb y)
    ⟨t.val * 1024 + (y 0).val, by omega⟩ ⟨(y 0).val, hp⟩ ⟨(y 1).val, hj⟩ ?_ ?_ ?_ ?_ ?_ ?_ ?_ ?_ ?_ ?_
  · exact ix2_ext _ _ _ rfl rfl
  · refine ix2_ext _ _ _ ?_ ?_
    · show win0_8.index t (0 : Fin 2) * 1024 + 1 * (y 0).val = t.val * 1024 + (y 0).val; omega
    · show win0_8.index t (1 : Fin 2) * 128 + 1 * (y 1).val = (y 1).val; omega
  · intro k; exact rows0 m c t _ k _ rfl
  · intro k; exact rows1 m c t _ k _ rfl
  · intro k; exact rows2 m c t _ k _ rfl
  · intro k c'; exact whole3 m c t k c'
  · intro k c'; exact whole4 m c t k c'
  · intro c'; exact whole5 m c t c'
  · intro k l'; exact whole6 m c t k l'
  · intro l'; exact whole7 m c t l'

/-! ## The 64 blocks cover each result array -/

/-- An index of result array 0 is in point `t`'s block iff each coordinate is in the block's range on its axis. -/
theorem mem_blk8 (t : Fin cfg0.N) (i : S65536x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v5_0).slice (win0_8.rect t)).set ↔ _
  rw [View.set_slice_whole, Rect.mem_set_unit]
  exact Iff.rfl

/-- Row r lies in the block of point r / 1024: the 64 row blocks cover the array. -/
theorem cover8 (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  have hlt : (i 0).val / 1024 < cfg0.N :=
    Nat.lt_of_lt_of_eq (by omega : (i 0).val / 1024 < 64) (show (64 : Nat) = cfg0.N from N_0.symm)
  obtain ⟨-, -, -, -, -, -, g0, g1, -⟩ := idx_rows ⟨(i 0).val / 1024, hlt⟩
  have g0' : win0_8.index ⟨(i 0).val / 1024, hlt⟩ (0 : Fin 2) = (i 0).val / 1024 := g0
  refine ⟨⟨(i 0).val / 1024, hlt⟩, flush0_8 _, ?_⟩
  rw [mem_blk8]
  intro a
  match a with
  | ⟨0, _⟩ =>
    show win0_8.index ⟨(i 0).val / 1024, hlt⟩ (0 : Fin 2) * 1024 ≤ (i 0).val
      ∧ (i 0).val < win0_8.index ⟨(i 0).val / 1024, hlt⟩ (0 : Fin 2) * 1024 + 1024
    omega
  | ⟨1, _⟩ =>
    show win0_8.index ⟨(i 0).val / 1024, hlt⟩ (1 : Fin 2) * 128 ≤ (i 1).val
      ∧ (i 1).val < win0_8.index ⟨(i 0).val / 1024, hlt⟩ (1 : Fin 2) * 128 + 128
    omega

/-- An index of result array 1 is in point `t`'s block iff each coordinate is in the block's range on its axis. -/
theorem mem_blk9 (t : Fin cfg0.N) (i : S65536x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v5_1).slice (win0_9.rect t)).set ↔ _
  rw [View.set_slice_whole, Rect.mem_set_unit]
  exact Iff.rfl

/-- Row r lies in the block of point r / 1024: the 64 row blocks cover the array. -/
theorem cover9 (i : S65536x256.Idx) :
    ∃ t : Fin cfg0.N, (cfg0.win 9).flush t = true ∧ i ∈ ((cfg0.win 9).blk t).view.set := by
  have hi0 : (i 0).val < 65536 := (i 0).isLt
  have hi1 : (i 1).val < 256 := (i 1).isLt
  have hlt : (i 0).val / 1024 < cfg0.N :=
    Nat.lt_of_lt_of_eq (by omega : (i 0).val / 1024 < 64) (show (64 : Nat) = cfg0.N from N_0.symm)
  obtain ⟨-, -, -, -, -, -, -, -, g0, g1, -⟩ := idx_rows ⟨(i 0).val / 1024, hlt⟩
  have g0' : win0_9.index ⟨(i 0).val / 1024, hlt⟩ (0 : Fin 2) = (i 0).val / 1024 := g0
  refine ⟨⟨(i 0).val / 1024, hlt⟩, flush0_9 _, ?_⟩
  rw [mem_blk9]
  intro a
  match a with
  | ⟨0, _⟩ =>
    show win0_9.index ⟨(i 0).val / 1024, hlt⟩ (0 : Fin 2) * 1024 ≤ (i 0).val
      ∧ (i 0).val < win0_9.index ⟨(i 0).val / 1024, hlt⟩ (0 : Fin 2) * 1024 + 1024
    omega
  | ⟨1, _⟩ =>
    show win0_9.index ⟨(i 0).val / 1024, hlt⟩ (1 : Fin 2) * 256 ≤ (i 1).val
      ∧ (i 1).val < win0_9.index ⟨(i 0).val / 1024, hlt⟩ (1 : Fin 2) * 256 + 256
    omega

/-- An index of result array 2 is in point `t`'s block iff each coordinate is in the block's range on its axis. -/
theorem mem_blk10 (t : Fin cfg0.N) (i : S65536x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v5_2).slice (win0_10.rect t)).set ↔ _
  rw [View.set_slice_whole, Rect.mem_set_unit]
  exact Iff.rfl

/-- Row r lies in the block of point r / 1024: the 64 row blocks cover the array. -/
theorem cover10 (i : S65536x256.Idx) :
    ∃ t : Fin cfg0.N, (cfg0.win 10).flush t = true ∧ i ∈ ((cfg0.win 10).blk t).view.set := by
  have hi0 : (i 0).val < 65536 := (i 0).isLt
  have hi1 : (i 1).val < 256 := (i 1).isLt
  have hlt : (i 0).val / 1024 < cfg0.N :=
    Nat.lt_of_lt_of_eq (by omega : (i 0).val / 1024 < 64) (show (64 : Nat) = cfg0.N from N_0.symm)
  obtain ⟨-, -, -, -, -, -, -, -, -, -, g0, g1⟩ := idx_rows ⟨(i 0).val / 1024, hlt⟩
  have g0' : win0_10.index ⟨(i 0).val / 1024, hlt⟩ (0 : Fin 2) = (i 0).val / 1024 := g0
  refine ⟨⟨(i 0).val / 1024, hlt⟩, flush0_10 _, ?_⟩
  rw [mem_blk10]
  intro a
  match a with
  | ⟨0, _⟩ =>
    show win0_10.index ⟨(i 0).val / 1024, hlt⟩ (0 : Fin 2) * 1024 ≤ (i 0).val
      ∧ (i 0).val < win0_10.index ⟨(i 0).val / 1024, hlt⟩ (0 : Fin 2) * 1024 + 1024
    omega
  | ⟨1, _⟩ =>
    show win0_10.index ⟨(i 0).val / 1024, hlt⟩ (1 : Fin 2) * 256 ≤ (i 1).val
      ∧ (i 1).val < win0_10.index ⟨(i 0).val / 1024, hlt⟩ (1 : Fin 2) * 256 + 256
    omega

/-! ## The result arrays after the region -/

/-- The padded read-out array after the region. -/
theorem final8 (c : Dev nD) : (dats m 0 c).arrAt 8 cfg0.N
    = logitK (V m c main_v0) (V m c main_arg1) (V m c main_arg2) (V m c main_arg3) (V m c main_arg4) (V m c main_v1)
        (V m c main_v2) (V m c main_v4) :=
  (dats m 0 c).arrAt_eq_of_cover 8 _ (fun t _ => flushed8_eq m c t) cover8

/-- The hidden-state array after the region. -/
theorem final9 (c : Dev nD) : (dats m 0 c).arrAt 9 cfg0.N
    = hiddenK (V m c main_v0) (V m c main_arg1) (V m c main_arg2) (V m c main_arg3) (V m c main_arg4) (V m c main_v1) :=
  (dats m 0 c).arrAt_eq_of_cover 9 _ (fun t _ => flushed9_eq m c t) cover9

/-- The cell-state array after the region. -/
theorem final10 (c : Dev nD) : (dats m 0 c).arrAt 10 cfg0.N
    = cellK (V m c main_v0) (V m c main_arg1) (V m c main_arg2) (V m c main_arg3) (V m c main_arg4) (V m c main_v1) :=
  (dats m 0 c).arrAt_eq_of_cover 10 _ (fun t _ => flushed10_eq m c t) cover10

end Cert.KernelIdeal.Blocks

end
-- ==== Proof.HostSide.lean ====
/-
  The host operations around the region.  Before it: the features lose their unit time axis (65536 × 1 × 5 →
  65536 × 5), the gate bias becomes one row (1024 → 1 × 1024), the read-out weights are padded with zero columns
  (256 × 5 → 256 × 128) and the read-out bias is padded with zeros and becomes one row (5 → 128 → 1 × 128).  After it:
  the first five columns are cut out of the 65536 × 128 read-out array.  Each is read at an index here; inside the
  first five columns the padded arrays are the unpadded ones.
-/
import proofs.«138876_j82111184765559_2_alg».proof.Proof.Gen.KernelIdeal.Frame
import proofs.«138876_j82111184765559_2_alg».proof.Proof.Cell
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo Cert.Lstm

variable (m : (ℓ : Loc nD τ sig) → Buf (Elt Ideal) ℓ)

/-- The features as the region finds them: the argument with its unit axis dropped. -/
theorem V_v0 (c : Dev nD) : (V m c main_v0 : S65536x5.Idx → EReal)
    = shapeCast S65536x5 (m ((c : Thread nD τ).loc main_arg0)) shapeCasts_S65536x1x5_S65536x5 := by
  dsimp only [V, V0]
  simp only [hostOps0, hostOps0_1, hostOps0_2, hostOps0_3, hostOps0_4, List.flatten_cons, List.flatten_nil, List.append_nil,
    List.cons_append, List.nil_append]
  after_results
  rfl

/-- The gate bias as the region finds it: the argument as one row. -/
theorem V_v1 (c : Dev nD) : (V m c main_v1 : S1x1024.Idx → EReal)
    = shapeCast S1x1024 (m ((c : Thread nD τ).loc main_arg5)) shapeCasts_S1024_S1x1024 := by
  dsimp only [V, V0]
  simp only [hostOps0, hostOps0_1, hostOps0_2, hostOps0_3, hostOps0_4, List.flatten_cons, List.flatten_nil, List.append_nil,
    List.cons_append, List.nil_append]
  after_results
  rfl

/-- The read-out weights as the region finds them: the argument padded on the right with 123 columns of the padding value. -/
theorem V_v2 (c : Dev nD) : (V m c main_v2 : S256x128.Idx → EReal)
    = pad S256x128 ![0, 0] ![0, 123] ![0, 0] (m ((c : Thread nD τ).loc main_arg6))
        (sitofp (F := Ideal) .f32 (constantI S_ 32 0#32)) pads_S256x5_S256x128_000_01230 h_S_ := by
  dsimp only [V, V0]
  simp only [hostOps0, hostOps0_1, hostOps0_2, hostOps0_3, hostOps0_4, List.flatten_cons, List.flatten_nil, List.append_nil,
    List.cons_append, List.nil_append]
  after_results
  rfl

/-- The read-out bias as the region finds it: the argument padded with 123 entries, as one row. -/
theorem V_v4 (c : Dev nD) : (V m c main_v4 : S1x128.Idx → EReal)
    = shapeCast S1x128 (pad S128 ![0] ![123] ![0] (m ((c : Thread nD τ).loc main_arg7))
        (sitofp (F := Ideal) .f32 (constantI S_ 32 0#32)) pads_S5_S128_01230 h_S_) shapeCasts_S128_S1x128 := by
  dsimp only [V, V0]
  simp only [hostOps0, hostOps0_1, hostOps0_2, hostOps0_3, hostOps0_4, List.flatten_cons, List.flatten_nil, List.append_nil,
    List.cons_append, List.nil_append]
  after_results
  rfl

/-! ## The region-entry arrays read at an index -/

/-- Feature k of row R. -/
theorem x_at (c : Dev nD) (R : Fin 65536) (k : Fin 5) :
    V m c main_v0 (ix2 R k) = m ((c : Thread nD τ).loc main_arg0) (ix3 R (0 : Fin 1) k) := by
  refine (congrFun (V_v0 m c) (ix2 R k)).trans ?_
  exact shapeCast_apply _ shapeCasts_S65536x1x5_S65536x5 (ix2 R k) (ix3 R (0 : Fin 1) k) (by
    rewrite [Shape.rowMajor_val_three, Shape.rowMajor_val_two]
    show (R.val * 1 + 0) * 5 + k.val = R.val * 5 + k.val
    omega)

/-- Entry c' of the gate bias. -/
theorem b_at (c : Dev nD) (c' : Fin 1024) :
    V m c main_v1 (ix2 (0 : Fin 1) c') = m ((c : Thread nD τ).loc main_arg5) (ix1 c') := by
  refine (congrFun (V_v1 m c) (ix2 (0 : Fin 1) c')).trans ?_
  exact shapeCast_a_1a_apply _ shapeCasts_S1024_S1x1024 (0 : Fin 1) c'

/-- Inside the first five columns the padded read-out weights are the read-out weights. -/
theorem wd_at (c : Dev nD) (k : Fin 256) (l : Fin 5) (l' : Fin 128) (hl : l'.val = l.val) :
    V m c main_v2 (ix2 k l') = m ((c : Thread nD τ).loc main_arg6) (ix2 k l) := by
  refine (congrFun (V_v2 m c) (ix2 k l')).trans ?_
  have hl5 : l.val < 5 := l.isLt
  unfold pad
  split
  · refine congrArg _ (ix2_ext _ k l ?_ ?_)
    · show (k.val - 0) / (0 + 1) = k.val; omega
    · show (l'.val - 0) / (0 + 1) = l.val; omega
  · rename_i hn
    refine absurd (fun a => ?_) hn
    match a with
    | ⟨0, _⟩ =>
      have hk : k.val < 256 := k.isLt
      show 0 ≤ k.val ∧ (k.val - 0) % (0 + 1) = 0 ∧ (k.val - 0) / (0 + 1) < 256
      omega
    | ⟨1, _⟩ =>
      show 0 ≤ l'.val ∧ (l'.val - 0) % (0 + 1) = 0 ∧ (l'.val - 0) / (0 + 1) < 5
      omega

/-- Inside the first five entries the padded read-out bias row is the read-out bias. -/
theorem bd_at (c : Dev nD) (l : Fin 5) (l' : Fin 128) (hl : l'.val = l.val) :
    V m c main_v4 (ix2 (0 : Fin 1) l') = m ((c : Thread nD τ).loc main_arg7) (ix1 l) := by
  refine (congrFun (V_v4 m c) (ix2 (0 : Fin 1) l')).trans ?_
  refine (shapeCast_a_1a_apply _ shapeCasts_S128_S1x128 (0 : Fin 1) l').trans ?_
  have hl5 : l.val < 5 := l.isLt
  unfold pad
  split
  · refine congrArg _ (funext fun a => Fin.ext ?_)
    match a with
    | ⟨0, _⟩ => show (l'.val - 0) / (0 + 1) = l.val; omega
  · rename_i hn
    refine absurd (fun a => ?_) hn
    match a with
    | ⟨0, _⟩ =>
      show 0 ≤ l'.val ∧ (l'.val - 0) % (0 + 1) = 0 ∧ (l'.val - 0) / (0 + 1) < 5
      omega

/-! ## After the region -/

/-- The program's first result is the first five columns of the padded read-out array the region leaves. -/
theorem tail_logits (c : Dev nD) :
    (Pipeline.afterTail₀ cfgs (dats m) 0 (V0 m) [hostOps1] c main_v6 : S65536x5.Idx → EReal)
      = extractStridedSlice S65536x5 ![0, 0] ((dats m 0 c).arrAt 8 cfg0.N) slices_S65536x128_S65536x5_0_0 := by
  unfold Pipeline.afterTail₀
  show StableHlo.after hostOps1 _ (Proc.devRef .tc main_v6) = _
  after_results
  exact congrArg (fun X => extractStridedSlice S65536x5 ![0, 0] X slices_S65536x128_S65536x5_0_0)
    (Pipeline.withArrays_arr spec0 launch0.win.arr_inj c _ _ 8)

end Cert.KernelIdeal.HostSide

end
-- ==== Proof.KernelRun.lean ====
/-
  The kernel program's run, read as values: every weakly fair execution ends with the cell-state result, the
  hidden-state result and the five read-outs at the LSTM step of the ARGUMENT arrays, the arguments unchanged.

  The region leaves each result array at the whole-array function of the arrays it finds; those arrays are the
  arguments re-laid by the host operations before the region (a unit axis dropped, a vector as one row, zero
  columns appended), and the read-outs are the first five columns of the padded read-out array, where the appended
  columns play no part.
-/
import proofs.«138876_j82111184765559_2_alg».proof.Proof.Blocks
import proofs.«138876_j82111184765559_2_alg».proof.Proof.HostSide

noncomputable section

namespace Cert.KernelIdeal.ValueRun

open Cert.KernelIdeal Cert.KernelIdeal.Gen Idealize.ShloMosaic Idealize.ShloMosaic.TcCoe Idealize.SL.Sem
open Idealize.ShloMosaic.ValueIdx Cert.Lstm Cert.KernelIdeal.Blocks Cert.KernelIdeal.HostSide
open Idealize.ShloMosaic.Pipeline (Dat)

/-- Read-outs against two weight arrays of different widths agree at columns where the weights and biases agree. -/
theorem logitArr_cols (n n' : Nat) (xr : Fin 65536 → Fin 5 → EReal) (hr cr : Fin 65536 → Fin 256 → EReal)
    (W : Fin 5 → Fin 1024 → EReal) (U : Fin 256 → Fin 1024 → EReal) (b : Fin 1024 → EReal)
    (Wd : Fin 256 → Fin n → EReal) (bd : Fin n → EReal) (Wd' : Fin 256 → Fin n' → EReal) (bd' : Fin n' → EReal)
    (l : Fin n) (l' : Fin n') (hW : ∀ k, Wd k l = Wd' k l') (hb : bd l = bd' l') (r : Fin 65536) :
    logitArr n xr hr cr W U b Wd bd (ix2 r l) = logitArr n' xr hr cr W U b Wd' bd' (ix2 r l') := by
  rw [logitArr_ix2, logitArr_ix2, hb, show (fun k => Wd k l) = fun k => Wd' k l' from funext hW]

variable (m : (ℓ : Loc nD τ sig) → Buf (Elt Ideal) ℓ) (ρ : Dev nD → PrngReg)

/-! ## The rows and weights the region finds are the arguments' -/

theorem rows_x (c : Dev nD) : (fun (r : Fin 65536) (k : Fin 5) => V m c main_v0 (ix2 r k))
    = fun r k => (m ((c : Thread nD τ).loc main_arg0)) (ix3 r (0 : Fin 1) k) := funext fun r => funext fun k => x_at m c r k
theorem rows_h (c : Dev nD) : (fun (r : Fin 65536) (k : Fin 256) => V m c main_arg1 (ix2 r k))
    = fun r k => (m ((c : Thread nD τ).loc main_arg1)) (ix2 r k) := funext fun r => funext fun k => congrFun (V_main_arg1 m c) (ix2 r k)
theorem rows_c (c : Dev nD) : (fun (r : Fin 65536) (k : Fin 256) => V m c main_arg2 (ix2 r k))
    = fun r k => (m ((c : Thread nD τ).loc main_arg2)) (ix2 r k) := funext fun r => funext fun k => congrFun (V_main_arg2 m c) (ix2 r k)
theorem mat_w (c : Dev nD) : (fun (k : Fin 5) (c' : Fin 1024) => V m c main_arg3 (ix2 k c'))
    = fun k c' => (m ((c : Thread nD τ).loc main_arg3)) (ix2 k c') := funext fun k => funext fun c' => congrFun (V_main_arg3 m c) (ix2 k c')
theorem mat_u (c : Dev nD) : (fun (k : Fin 256) (c' : Fin 1024) => V m c main_arg4 (ix2 k c'))
    = fun k c' => (m ((c : Thread nD τ).loc main_arg4)) (ix2 k c') := funext fun k => funext fun c' => congrFun (V_main_arg4 m c) (ix2 k c')
theorem vec_b (c : Dev nD) : (fun (c' : Fin 1024) => V m c main_v1 (ix2 (0 : Fin 1) c'))
    = fun c' => (m ((c : Thread nD τ).loc main_arg5)) (ix1 c') := funext fun c' => b_at m c c'

/-! ## The three results of the arguments -/

theorem cell_args (c : Dev nD) : cellK (V m c main_v0) (V m c main_arg1) (V m c main_arg2) (V m c main_arg3) (V m c main_arg4) (V m c main_v1) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold cellK newCell
  rw [rows_x m c, rows_h m c, rows_c m c, mat_w m c, mat_u m c, vec_b m c]

theorem hidden_args (c : Dev nD) : hiddenK (V m c main_v0) (V m c main_arg1) (V m c main_arg2) (V m c main_arg3) (V m c main_arg4) (V m c main_v1) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold hiddenK newHidden
  rw [rows_x m c, rows_h m c, rows_c m c, mat_w m c, mat_u m c, vec_b m c]

theorem logits_args (c : Dev nD) :
    extractStridedSlice S65536x5 ![0, 0] (logitK (V m c main_v0) (V m c main_arg1) (V m c main_arg2) (V m c main_arg3) (V m c main_arg4) (V m c main_v1) (V m c main_v2) (V m c main_v4)) slices_S65536x128_S65536x5_0_0
      = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨R, l, rfl⟩ : ∃ (R : Fin 65536) (l : Fin 5), i = ix2 R l := ⟨i 0, i 1, eq_ix2 i⟩
  have hl : l.val < 5 := l.isLt
  have hs := slice2_axis1_apply (n0 := 65536) (n1 := 128) (m := 5) 0
    (logitK (V m c main_v0) (V m c main_arg1) (V m c main_arg2) (V m c main_arg3) (V m c main_arg4) (V m c main_v1) (V m c main_v2) (V m c main_v4))
    slices_S65536x128_S65536x5_0_0 R l ⟨l.val, by omega⟩ (Nat.zero_add _).symm
  refine hs.trans ?_
  unfold logitK logits
  rw [rows_x m c, rows_h m c, rows_c m c, mat_w m c, mat_u m c, vec_b m c]
  exact logitArr_cols 128 5 _ _ _ _ _ _ _ _ _ _ ⟨l.val, by omega⟩ l (fun k => wd_at m c k l _ rfl) (bd_at m c l _ rfl) R

/-! ## The frame run's post, one buffer at a time -/

/-- After the run the first result holds what the slice after the region computes. -/
theorem post_logits (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v6) = Pipeline.afterTail₀ cfgs (dats m) 0 (V0 m) [hostOps1] c main_v6 :=
  (h c).2 main_v6 (Pipeline.mem_restRefs_of main_v6 (by decide) (by decide))

/-- After the run the second result is the region's hidden-state array. -/
theorem post_hidden (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5_1) = (dats m 0 c).arrAt 9 cfg0.N :=
  (h c).1 9

/-- After the run the third result is the region's cell-state array. -/
theorem post_cell (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5_2) = (dats m 0 c).arrAt 10 cfg0.N :=
  (h c).1 10

theorem kept0 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)
theorem kept1 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept5 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)
theorem kept6 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)
theorem kept7 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)

/-- The read-outs after the run, of the arguments. -/
theorem logits_run (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v6) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (post_logits m r h c).trans ?_
  refine (tail_logits m c).trans ?_
  rw [final8 m c]
  exact logits_args m c

/-- The new hidden state after the run, of the arguments. -/
theorem hidden_run (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5_1) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (post_hidden m r h c).trans ((final9 m c).trans (hidden_args m c))

/-- The new cell state after the run, of the arguments. -/
theorem cell_run (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5_2) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (post_cell m r h c).trans ((final10 m c).trans (cell_args m c))

/-! ## The run -/

/-- Every weakly fair execution of the kernel program ends with its three results at the LSTM step of its
    arguments, and the arguments unchanged. -/
theorem run : θ_run defs (onTc (τ := τ) (main (F := Ideal))) ⟨m, fun _ => 0, ρ⟩ (fun r => ∀ c : Dev nD,
      r.2.mem ((c : Thread nD τ).loc main_v6) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v5_1) = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v5_2) = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨logits_run m r h c, hidden_run m r h c, cell_run m r h c, kept0 m r h c, kept1 m r h c, kept2 m r h c, kept3 m r h c,
      kept4 m r h c, kept5 m r h c, kept6 m r h c, kept7 m r h c⟩)
    (run_main m ρ)

end Cert.KernelIdeal.ValueRun

end
-- ==== Proof.Reference.lean ====
/-
  The reference program's three results are the LSTM step of the argument arrays.

  Read one operation at a time: its 65536 × 1024 pre-activation array is, at (r, c), row r's gate pre-activation
  at column c (two matrix products as sums, the bias broadcast over the rows); each of its three logistic gates is
  spelt 1 / (1 + exp(−z)) on a run of 256 columns, which on the extended reals is the logistic function itself;
  the rectifier is a maximum with zero; the read-out is a third matrix product plus the broadcast read-out bias.
-/
import proofs.«138876_j82111184765559_2_alg».proof.Proof.Gen.ReferenceIdeal.Read
import proofs.«138876_j82111184765559_2_alg».proof.Proof.Cell
import Idealize.ShloMosaic.PureOps.Ideal.Laws

noncomputable section

namespace Cert.ReferenceIdeal.Stages

open Cert.ReferenceIdeal Cert.ReferenceIdeal.Read Idealize.ShloMosaic Idealize.ShloMosaic.ValueIdx Cert.Lstm

/-- The word of the float 1.0 denotes the real number one. -/
theorem one_f32 : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

variable (x0 : (⟨S65536x1x5, .f32⟩ : BufTy).Contents (Elt Ideal)) (x1 x2 : (⟨S65536x256, .f32⟩ : BufTy).Contents (Elt Ideal))
  (x3 : (⟨S5x1024, .f32⟩ : BufTy).Contents (Elt Ideal)) (x4 : (⟨S256x1024, .f32⟩ : BufTy).Contents (Elt Ideal))
  (x5 : (⟨S1024, .f32⟩ : BufTy).Contents (Elt Ideal)) (x6 : (⟨S256x5, .f32⟩ : BufTy).Contents (Elt Ideal))
  (x7 : (⟨S5, .f32⟩ : BufTy).Contents (Elt Ideal))

/-- Row `r`'s gate pre-activations, from the argument arrays. -/
abbrev zRow (r : Fin 65536) : Fin 1024 → EReal :=
  gate (fun k => x0 (ix3 r (0 : Fin 1) k)) (fun k => x1 (ix2 r k)) (fun k c => x3 (ix2 k c)) (fun k c => x4 (ix2 k c))
    (fun c => x5 (ix1 c))

/-- The pre-activation array at (r, c). -/
theorem pre_act (r : Fin 65536) (c : Fin 1024) :
    val_main_v6 (F := Ideal) x0 x1 x3 x4 x5 (ix2 r c) = zRow x0 x1 x3 x4 x5 r c := by
  rw [val_main_v6_apply, val_main_v3_apply, val_main_v1_apply, val_main_v2_apply, val_main_v5_apply, val_main_v4_apply]
  unfold zRow gate
  refine congrArg₂ (· + ·) (congrArg₂ (· + ·)
    (Finset.sum_congr rfl fun k _ => congrArg₂ (· * ·) ?_ (congrArg x3 ?_))
    (Finset.sum_congr rfl fun k _ => congrArg₂ (· * ·) (congrArg x1 ?_) (congrArg x4 ?_))) (congrArg x5 ?_)
  · rw [val_main_v0_apply]
    refine congrArg x0 (funext fun a => Fin.ext ?_)
    have hk : k.val < 5 := k.isLt
    match a with
    | ⟨0, _⟩ => show (r.val * 5 + k.val) / 5 = r.val; omega
    | ⟨1, _⟩ => rfl
    | ⟨2, _⟩ => show (r.val * 5 + k.val) % 5 = k.val; omega
  · exact ix2_ext _ k c rfl rfl
  · exact ix2_ext _ r k rfl rfl
  · exact ix2_ext _ k c rfl rfl
  · exact funext fun a => Fin.ext (by match a with | ⟨0, _⟩ => rfl)

/-- 1 / (1 + exp(−z)) with the float word of 1.0 is the logistic function of z. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [one_f32]

/-- The input gate at (r, j). -/
theorem gate_input (r : Fin 65536) (j : Fin 256) :
    val_main_v16 (F := Ideal) x0 x1 x3 x4 x5 (ix2 r j) = Ideal.logistic (zRow x0 x1 x3 x4 x5 r (colI j)) := by
  rw [val_main_v16_apply, val_main_v15_apply, val_main_cst_0_apply, val_main_v14_apply, val_main_v13_apply, val_main_cst_apply,
    val_main_v12_apply, val_main_v11_apply, val_main_v7_apply,
    show idx_main_v7 (ix2 r j) = ix2 r (colI j) from ix2_ext _ _ _ rfl rfl, pre_act]
  exact logistic_spelt _

/-- The forget gate at (r, j). -/
theorem gate_forget (r : Fin 65536) (j : Fin 256) :
    val_main_v22 (F := Ideal) x0 x1 x3 x4 x5 (ix2 r j) = Ideal.logistic (zRow x0 x1 x3 x4 x5 r (colF j)) := by
  rw [val_main_v22_apply, val_main_v21_apply, val_main_cst_2_apply, val_main_v20_apply, val_main_v19_apply, val_main_cst_1_apply,
    val_main_v18_apply, val_main_v17_apply, val_main_v8_apply,
    show idx_main_v8 (ix2 r j) = ix2 r (colF j) from ix2_ext _ _ _ rfl rfl, pre_act]
  exact logistic_spelt _

/-- The output gate at (r, j). -/
theorem gate_output (r : Fin 65536) (j : Fin 256) :
    val_main_v28 (F := Ideal) x0 x1 x3 x4 x5 (ix2 r j) = Ideal.logistic (zRow x0 x1 x3 x4 x5 r (colO j)) := by
  rw [val_main_v28_apply, val_main_v27_apply, val_main_cst_4_apply, val_main_v26_apply, val_main_v25_apply, val_main_cst_3_apply,
    val_main_v24_apply, val_main_v23_apply, val_main_v10_apply,
    show idx_main_v10 (ix2 r j) = ix2 r (colO j) from ix2_ext _ _ _ rfl rfl, pre_act]
  exact logistic_spelt _

/-- The new cell state at (r, j). -/
theorem cell_at (r : Fin 65536) (j : Fin 256) :
    val_main_v32 (F := Ideal) x0 x1 x2 x3 x4 x5 (ix2 r j) = cellOf (zRow x0 x1 x3 x4 x5 r) (fun j' => x2 (ix2 r j')) j := by
  rw [val_main_v32_apply, val_main_v29_apply, val_main_v31_apply, val_main_v30_apply, val_main_call0_v0_apply,
    val_main_call0_cst_apply, val_main_v9_apply,
    show idx_main_v9 (ix2 r j) = ix2 r (colC j) from ix2_ext _ _ _ rfl rfl, pre_act, gate_forget, gate_input]
  show _ * _ + _ * max _ (Ideal.ofBits .f32 0x00000000#32) = _
  rw [Ideal.ofBits_zero_f32]
  rfl

/-- The new hidden state at (r, j). -/
theorem hidden_at (r : Fin 65536) (j : Fin 256) :
    val_main_v34 (F := Ideal) x0 x1 x2 x3 x4 x5 (ix2 r j) = hiddenOf (zRow x0 x1 x3 x4 x5 r) (fun j' => x2 (ix2 r j')) j := by
  rw [val_main_v34_apply, val_main_v33_apply, val_main_call1_v0_apply, val_main_call1_cst_apply, gate_output, cell_at]
  show _ * max _ (Ideal.ofBits .f32 0x00000000#32) = _
  rw [Ideal.ofBits_zero_f32]
  rfl

/-- The read-outs at (r, l). -/
theorem logits_at (r : Fin 65536) (l : Fin 5) :
    val_main_v38 (F := Ideal) x0 x1 x2 x3 x4 x5 x6 x7 (ix2 r l)
      = readOut (hiddenOf (zRow x0 x1 x3 x4 x5 r) (fun j' => x2 (ix2 r j'))) (fun k => x6 (ix2 k l)) (x7 (ix1 l)) := by
  rw [val_main_v38_apply, val_main_v35_apply, val_main_v37_apply, val_main_v36_apply]
  unfold readOut
  refine congrArg₂ (· + ·) (Finset.sum_congr rfl fun k _ => congrArg₂ (· * ·) ?_ (congrArg x6 ?_)) (congrArg x7 ?_)
  · rw [show lidx_main_v35 (ix2 r l) k = ix2 r k from ix2_ext _ _ _ rfl rfl]
    exact hidden_at x0 x1 x2 x3 x4 x5 r k
  · exact ix2_ext _ k l rfl rfl
  · exact funext fun a => Fin.ext (by match a with | ⟨0, _⟩ => rfl)

/-! ## The three results as whole arrays -/

theorem cell_stage : val_main_v32 (F := Ideal) x0 x1 x2 x3 x4 x5 = newCell x0 x1 x2 x3 x4 x5 := by
  funext i
  obtain ⟨r, j, rfl⟩ : ∃ (r : Fin 65536) (j : Fin 256), i = ix2 r j := ⟨i 0, i 1, eq_ix2 i⟩
  exact cell_at x0 x1 x2 x3 x4 x5 r j

theorem hidden_stage : val_main_v34 (F := Ideal) x0 x1 x2 x3 x4 x5 = newHidden x0 x1 x2 x3 x4 x5 := by
  funext i
  obtain ⟨r, j, rfl⟩ : ∃ (r : Fin 65536) (j : Fin 256), i = ix2 r j := ⟨i 0, i 1, eq_ix2 i⟩
  exact hidden_at x0 x1 x2 x3 x4 x5 r j

theorem logits_stage : val_main_v38 (F := Ideal) x0 x1 x2 x3 x4 x5 x6 x7 = logits x0 x1 x2 x3 x4 x5 x6 x7 := by
  funext i
  obtain ⟨r, l, rfl⟩ : ∃ (r : Fin 65536) (l : Fin 5), i = ix2 r l := ⟨i 0, i 1, eq_ix2 i⟩
  exact logits_at x0 x1 x2 x3 x4 x5 x6 x7 r l

end Cert.ReferenceIdeal.Stages

end
-- ==== Proof.lean ====
/-
  One LSTM step with ReLU activations and a five-way dense read-out over 65536 batch rows: a kernel that works through
  the rows in 64 blocks of 1024 (with the read-out weights padded to 128 columns and the padding cut off afterwards)
  against the plain array program.

  On the extended reals both compute, for every row, the gate pre-activations z = x·W + h·U + b, the new cell state
  σ(z_f)·c + σ(z_i)·max(z_c, 0), the new hidden state σ(z_o)·max(cell, 0) and the read-outs hidden·Wd + bd:
  the kernel's roundings to bf16 are the identity there, its three matrix products into zero accumulators are the
  plain sums, its logistic function is the reference's 1 / (1 + exp(−z)), and the padded read-out columns never
  reach the result.  No law of arithmetic beyond reading both sides entry by entry is needed, so the precondition
  (every input finite) is not used.  The idealization rewrote no operation, so nothing is owed for it.

  Modules: Cell (the row-wise step), Payload (one grid point's stored entries), Blocks (blocks to whole arrays),
  HostSide (the re-layouts around the region), KernelRun (the kernel program's results of its arguments),
  Reference (the reference's results of its arguments).
-/
import proofs.«138876_j82111184765559_2_alg».proof.Defs
import proofs.«138876_j82111184765559_2_alg».proof.Proof.Gen.Kernel
import proofs.«138876_j82111184765559_2_alg».proof.Proof.Gen.Kernel.Skeleton
import proofs.«138876_j82111184765559_2_alg».proof.Proof.Gen.Kernel.Launch
import proofs.«138876_j82111184765559_2_alg».proof.Proof.Gen.Kernel.Points
import proofs.«138876_j82111184765559_2_alg».proof.Proof.Gen.Kernel.Frame
import proofs.«138876_j82111184765559_2_alg».proof.Proof.Gen.KernelIdeal
import proofs.«138876_j82111184765559_2_alg».proof.Proof.Gen.KernelIdeal.Skeleton
import proofs.«138876_j82111184765559_2_alg».proof.Proof.Gen.KernelIdeal.Launch
import proofs.«138876_j82111184765559_2_alg».proof.Proof.Gen.KernelIdeal.Points
import proofs.«138876_j82111184765559_2_alg».proof.Proof.Gen.KernelIdeal.Frame
import proofs.«138876_j82111184765559_2_alg».proof.Proof.Gen.ReferenceIdeal
import proofs.«138876_j82111184765559_2_alg».proof.Proof.Gen.ReferenceIdeal.Run
import proofs.«138876_j82111184765559_2_alg».proof.Proof.Gen.ReferenceIdeal.Read
import proofs.«138876_j82111184765559_2_alg».proof.Proof.Gen.Pre_finite_inputs
import proofs.«138876_j82111184765559_2_alg».proof.Proof.KernelRun
import proofs.«138876_j82111184765559_2_alg».proof.Proof.Reference
import Idealize.ShloMosaic.Adequacy
import Idealize.ShloMosaic.Init

noncomputable section

namespace Cert.Proof

open Idealize.ShloMosaic Idealize.ShloMosaic.TcCoe Idealize.SL.Sem

/-- The kernel program as printed runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments both programs end with the read-outs, the new hidden state and the
    new cell state of the LSTM step of those arguments. -/
theorem algebraic : Cert.algebraic_KernelIdeal_ReferenceIdeal := by
  intro m ρ m' ρ' _ hagree
  refine ⟨_, _, _, Cert.KernelIdeal.ValueRun.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v38_eq, Cert.ReferenceIdeal.Stages.logits_stage,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [(h c).2.1, Cert.ReferenceIdeal.Read.val_main_v34_eq, Cert.ReferenceIdeal.Stages.hidden_stage,
      (hagree c).1, (hagree c).2.1, (hagree c).2.2.1, (hagree c).2.2.2.1, (hagree c).2.2.2.2.1, (hagree c).2.2.2.2.2.1]
  · rw [(h c).2.2.1, Cert.ReferenceIdeal.Read.val_main_v32_eq, Cert.ReferenceIdeal.Stages.cell_stage,
      (hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
